-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S1x768 : Shape := ⟨2, ![1, 768]⟩
abbrev S1x1024x768 : Shape := ⟨3, ![1, 1024, 768]⟩
abbrev S1024x768 : Shape := ⟨2, ![1024, 768]⟩
abbrev S1024x2304 : Shape := ⟨2, ![1024, 2304]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S1x768, .f32⟩
  | .hbm, ⟨5, _⟩ => ⟨S8x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S2304x768, .f32⟩
  | .local _ .vmem, ⟨3, _⟩ => ⟨S768x768, .f32⟩
  | .local _ .vmem, ⟨4, _⟩ => ⟨S1x768, .f32⟩
  | .local _ .vmem, ⟨5, _⟩ => ⟨S1x1024x768, .f32⟩
  | .local _ .vmem, ⟨6, _⟩ => ⟨S1x1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S2304x768_S2304x768_0_0 : ∀ a, (![0, 0] : Fin 2 → Nat) a + S2304x768.size a ≤ S2304x768.size a
  h_S2304x768 : 0 < S2304x768.numel
  slices_S1024x2304_o0_0_S1024x64 : S1024x2304.Slices ![0, 0] S1024x64
  slices_S1024x2304_o0_768_S1024x64 : S1024x2304.Slices ![0, 768] S1024x64
  slices_S1024x2304_o0_1536_S1024x64 : S1024x2304.Slices ![0, 1536] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x2304_o0_64_S1024x64 : S1024x2304.Slices ![0, 64] S1024x64
  slices_S1024x2304_o0_832_S1024x64 : S1024x2304.Slices ![0, 832] S1024x64
  slices_S1024x2304_o0_1600_S1024x64 : S1024x2304.Slices ![0, 1600] S1024x64
  slices_S1024x2304_o0_128_S1024x64 : S1024x2304.Slices ![0, 128] S1024x64
  slices_S1024x2304_o0_896_S1024x64 : S1024x2304.Slices ![0, 896] S1024x64
  slices_S1024x2304_o0_1664_S1024x64 : S1024x2304.Slices ![0, 1664] S1024x64
  slices_S1024x2304_o0_192_S1024x64 : S1024x2304.Slices ![0, 192] S1024x64
  slices_S1024x2304_o0_960_S1024x64 : S1024x2304.Slices ![0, 960] S1024x64
  slices_S1024x2304_o0_1728_S1024x64 : S1024x2304.Slices ![0, 1728] S1024x64
  slices_S1024x2304_o0_256_S1024x64 : S1024x2304.Slices ![0, 256] S1024x64
  slices_S1024x2304_o0_1024_S1024x64 : S1024x2304.Slices ![0, 1024] S1024x64
  slices_S1024x2304_o0_1792_S1024x64 : S1024x2304.Slices ![0, 1792] S1024x64
  slices_S1024x2304_o0_320_S1024x64 : S1024x2304.Slices ![0, 320] S1024x64
  slices_S1024x2304_o0_1088_S1024x64 : S1024x2304.Slices ![0, 1088] S1024x64
  slices_S1024x2304_o0_1856_S1024x64 : S1024x2304.Slices ![0, 1856] S1024x64
  slices_S1024x2304_o0_384_S1024x64 : S1024x2304.Slices ![0, 384] S1024x64
  slices_S1024x2304_o0_1152_S1024x64 : S1024x2304.Slices ![0, 1152] S1024x64
  slices_S1024x2304_o0_1920_S1024x64 : S1024x2304.Slices ![0, 1920] S1024x64
  slices_S1024x2304_o0_448_S1024x64 : S1024x2304.Slices ![0, 448] S1024x64
  slices_S1024x2304_o0_1216_S1024x64 : S1024x2304.Slices ![0, 1216] S1024x64
  slices_S1024x2304_o0_1984_S1024x64 : S1024x2304.Slices ![0, 1984] S1024x64
  slices_S1024x2304_o0_512_S1024x64 : S1024x2304.Slices ![0, 512] S1024x64
  slices_S1024x2304_o0_1280_S1024x64 : S1024x2304.Slices ![0, 1280] S1024x64
  slices_S1024x2304_o0_2048_S1024x64 : S1024x2304.Slices ![0, 2048] S1024x64
  slices_S1024x2304_o0_576_S1024x64 : S1024x2304.Slices ![0, 576] S1024x64
  slices_S1024x2304_o0_1344_S1024x64 : S1024x2304.Slices ![0, 1344] S1024x64
  slices_S1024x2304_o0_2112_S1024x64 : S1024x2304.Slices ![0, 2112] S1024x64
  slices_S1024x2304_o0_640_S1024x64 : S1024x2304.Slices ![0, 640] S1024x64
  slices_S1024x2304_o0_1408_S1024x64 : S1024x2304.Slices ![0, 1408] S1024x64
  slices_S1024x2304_o0_2176_S1024x64 : S1024x2304.Slices ![0, 2176] S1024x64
  slices_S1024x2304_o0_704_S1024x64 : S1024x2304.Slices ![0, 704] S1024x64
  slices_S1024x2304_o0_1472_S1024x64 : S1024x2304.Slices ![0, 1472] S1024x64
  slices_S1024x2304_o0_2240_S1024x64 : S1024x2304.Slices ![0, 2240] S1024x64
  concatenates_S1024x64_S1024x64_S1024x64_S1024x64_S1024x64_S1024x64_S1024x64_S1024x64_S1024x64_S1024x64_S1024x64_S1024x64_S1024x768_d1 : Shape.Concatenates [S1024x64, S1024x64, S1024x64, S1024x64, S1024x64, S1024x64, S1024x64, S1024x64, S1024x64, S1024x64, S1024x64, S1024x64] S1024x768 1
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S2304x768_S1024x2304_1_1_0_0_n_n_wf : DotDims.WF S1024x768 S2304x768 S1024x2304 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S8x1024x768.size a
  hwx0_4 : ∀ i : grid0.Coords, EltTy.bits .f32 = 32 ∨ (Rect.block (s := S8x1024x768) S1x1024x768.size (cc0_transform_4 i) (hinb0_4 i)).WholeWords (EltTy.packing .f32)

variable [Facts₀]

def dot_S1024x768_S2304x768_S1024x2304_1_1_0_0_n_n : DotDims S1024x768 S2304x768 S1024x2304 where
  lhsContracting := [1]
  rhsContracting := [1]
  lhsNonContracting := [0]
  rhsNonContracting := [0]
  lhsBatch := []
  rhsBatch := []
  wf := dot_S1024x768_S2304x768_S1024x2304_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S_ : Shape := ⟨0, ![]⟩
abbrev S8x12x1024x1024 : Shape := ⟨4, ![8, 12, 1024, 1024]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x3x12x64, .f32⟩
  | .hbm, ⟨6, _⟩ => ⟨S3x8x12x1024x64, .f32⟩
  | .hbm, ⟨7, _⟩ => ⟨S1x8x12x1024x64, .f32⟩
  | .hbm, ⟨8, _⟩ => ⟨S8x12x1024x64, .f32⟩
  | .hbm, ⟨9, _⟩ => ⟨S_, .f32⟩
  | .hbm, ⟨10, _⟩ => ⟨S8x12x1024x64, .f32⟩
  | .hbm, ⟨11, _⟩ => ⟨S8x12x1024x64, .f32⟩
  | .hbm, ⟨12, _⟩ => ⟨S1x8x12x1024x64, .f32⟩
  | .hbm, ⟨13, _⟩ => ⟨S8x12x1024x64, .f32⟩
  | .hbm, ⟨14, _⟩ => ⟨S1x8x12x1024x64, .f32⟩
  | .hbm, ⟨15, _⟩ => ⟨S8x12x1024x64, .f32⟩
  | .hbm, ⟨16, _⟩ => ⟨S8x12x1024x1024, .f32⟩
  | .hbm, ⟨17, _⟩ => ⟨S_, .f32⟩
  | .hbm, ⟨18, _⟩ => ⟨S8x12x1024, .f32⟩
  | .hbm, ⟨19, _⟩ => ⟨S_, .f32⟩
  | .hbm, ⟨20, _⟩ => ⟨S8x12x1024, .f32⟩
  | .hbm, ⟨21, _⟩ => ⟨S8x12x1024, .f32⟩
  | .hbm, ⟨22, _⟩ => ⟨S8x12x1024x1, .f32⟩
  | .hbm, ⟨23, _⟩ => ⟨S8x12x1024x1024, .f32⟩
  | .hbm, ⟨24, _⟩ => ⟨S8x12x1024x1024, .f32⟩
  | .hbm, ⟨25, _⟩ => ⟨S8x12x1024x1024, .f32⟩
  | .hbm, ⟨26, _⟩ => ⟨S_, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x64, .f32⟩
  | .hbm, ⟨32, _⟩ => ⟨S8x1024x12x64, .f32⟩
  | .hbm, ⟨33, _⟩ => ⟨S8x1024x768, .f32⟩
  | .hbm, ⟨34, _⟩ => ⟨S8x1024x768, .f32⟩
  | .hbm, ⟨35, _⟩ => ⟨S1x1x768, .f32⟩
  | .hbm, ⟨36, _⟩ => ⟨S8x1024x768, .f32⟩
  | .hbm, ⟨37, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  bcast_S_S8x12x1024x64 : S_.BroadcastsInDim S8x12x1024x64 (![] : Fin 0 → Fin S8x12x1024x64.rank)
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Spec.lean ====
/-
  Multi-head self-attention over one batch entry, stated index by index on the extended reals.

  For a sequence of 1024 rows with 768 features each, the rows are first projected by a 2304 × 768 weight
  (three groups of 12 heads of 64 columns: queries, keys, values). For head `h`, the score of row `n` against
  row `m` is the sum over the head's 64 columns of (query · 1/8) · key; each row of scores is turned into
  weights by subtracting the row maximum, exponentiating and dividing by the row's sum; the head's output is
  the weighted sum of the head's value columns. The 12 head outputs sit side by side in 768 columns
  (column `c` belongs to head `c / 64`, position `c % 64`), and the result is that array projected by a
  768 × 768 weight, plus a bias per output column.
-/
import Idealize.ShloMosaic.PureOps.Ideal

noncomputable section

namespace Cert.Attn

open Idealize.ShloMosaic

/-- The scale 1/8 = 64^(-1/2) as the f32 word both programs carry. -/
def eighth : EReal := Ideal.ofBits .f32 0x3E000000#32

/-- The f32 word for minus infinity, the value a row maximum starts from. -/
def negInf : EReal := Ideal.ofBits .f32 0xFF800000#32

/-- Column of the projected array for group `s` (0 queries, 1 keys, 2 values), head `h`, position `d`. -/
def col (s : Fin 3) (h : Fin 12) (d : Fin 64) : Fin 2304 :=
  ⟨s.val * 768 + h.val * 64 + d.val, by have := s.isLt; have := h.isLt; have := d.isLt; omega⟩

/-- The projection of the rows: entry `(n, o)` is the sum over the 768 features of row `n` times weight row `o`. -/
def proj (x : Fin 1024 → Fin 768 → EReal) (w : Fin 2304 → Fin 768 → EReal) (n : Fin 1024) (o : Fin 2304) : EReal :=
  ∑ c : Fin 768, x n c * w o c

/-- Head `h`'s score of row `n` against row `m`. -/
def score (q : Fin 1024 → Fin 2304 → EReal) (h : Fin 12) (n m : Fin 1024) : EReal :=
  ∑ d : Fin 64, (q n (col 0 h d) * eighth) * q m (col 1 h d)

/-- The maximum of a row of 1024 scores, folded from minus infinity. -/
def rowMax (s : Fin 1024 → EReal) : EReal := (Finset.univ : Finset (Fin 1024)).fold max negInf s

/-- The softmax weight of entry `m` in a row of scores. -/
def soft (s : Fin 1024 → EReal) (m : Fin 1024) : EReal :=
  Ideal.div (Ideal.exp (s m - rowMax s)) (∑ m' : Fin 1024, Ideal.exp (s m' - rowMax s))

/-- Head `h`'s output at row `n`, position `d`: the softmax-weighted sum of the head's value column. -/
def head (q : Fin 1024 → Fin 2304 → EReal) (h : Fin 12) (n : Fin 1024) (d : Fin 64) : EReal :=
  ∑ m : Fin 1024, soft (score q h n) m * q m (col 2 h d)

/-- The heads side by side: column `c` is head `c / 64` at position `c % 64`. -/
def attn (q : Fin 1024 → Fin 2304 → EReal) (n : Fin 1024) (c : Fin 768) : EReal :=
  head q ⟨c.val / 64, by have := c.isLt; omega⟩ n ⟨c.val % 64, Nat.mod_lt _ (by decide)⟩

/-- The whole layer for one batch entry: attention projected by `w2`, plus the bias. -/
def out (x : Fin 1024 → Fin 768 → EReal) (w1 : Fin 2304 → Fin 768 → EReal) (w2 : Fin 768 → Fin 768 → EReal)
    (b : Fin 768 → EReal) (n : Fin 1024) (o : Fin 768) : EReal :=
  (∑ c : Fin 768, attn (proj x w1) n c * w2 o c) + b o

end Cert.Attn

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.Head.lean ====
/-
  The pieces of one attention head as the kernel's body computes them from the projected rows
  (a 1024 × 2304 array), each read at an index on the extended reals:
  a 64-column slice (scaled by 1/8 for the queries), the 1024 × 1024 scores as a product contracting the
  64 columns, the row softmax (row maximum, exponential of the difference, row sum, quotient), and the
  product of the weights with the value slice contracting the 1024 rows.
  The definitions are generic in the column offset, so one lemma serves all twelve heads.
-/
import proofs.«164785_j10840497455414_2_alg».proof.KernelIdeal
import proofs.«164785_j10840497455414_2_alg».proof.Proof.Spec
import proofs.«164785_j10840497455414_2_alg».proof.Proof.LibKeepdimsCol
import Idealize.ShloMosaic.Lib.ValueIdx
import Idealize.ShloMosaic.Lib.Pipeline.Value
import Idealize.ShloMosaic.PureOps.Ideal.Laws

noncomputable section

namespace Cert.KernelIdeal.Head

open Cert.KernelIdeal Idealize.ShloMosaic Idealize.ShloMosaic.ValueIdx Cert.Attn

variable [Cert.KernelIdeal.Facts]
open Cert.KernelIdeal.Facts₀ Cert.KernelIdeal.Facts

section Defs
variable {F : FTy → Type} [FloatOps F]

/-- A 64-column slice of the projected rows starting at column `o`. -/
def part (v5 : FVec F S1024x2304 .f32) (o : Nat) (w : S1024x2304.Slices ![0, o] S1024x64) : FVec F S1024x64 .bf16 :=
  truncf .bf16 (extractStridedSlice S1024x64 ![0, o] v5 w) bitsLt_bf16_f32

/-- The same slice scaled by 1/8: a head's queries. -/
def qpart (v5 : FVec F S1024x2304 .f32) (o : Nat) (w : S1024x2304.Slices ![0, o] S1024x64) : FVec F S1024x64 .bf16 :=
  truncf .bf16 (mulf (extractStridedSlice S1024x64 ![0, o] v5 w) (broadcast S1024x64 (Scalar.ofBits .f32 0x3E000000#32))) bitsLt_bf16_f32

/-- Queries against keys: the 1024 × 1024 scores. -/
def scores (q k : FVec F S1024x64 .bf16) : FVec F S1024x1024 .f32 :=
  matmul dot_S1024x64_S1024x64_S1024x1024_1_1_0_0_n_n none q k (constant S1024x1024 .f32 0x00000000#32)

/-- Each score minus its row's maximum, exponentiated. -/
def expo (s : FVec F S1024x1024 .f32) : FVec F S1024x1024 .f32 :=
  exp (subf s (broadcastTo S1024x1024 (shapeCast S1024x1 (multiReduction .maximumf [1] S1024 s 0xFF800000#32 reduces_S1024x1024_S1024 (.inl rfl) rfl) shapeCasts_S1024_S1024x1) broadcasts_S1024x1_S1024x1024))

/-- The exponentials divided by their row sums. -/
def normalize (e : FVec F S1024x1024 .f32) : FVec F S1024x1024 .f32 :=
  divf e (broadcastTo S1024x1024 (shapeCast S1024x1 (multiReduction .add [1] S1024 e 0x00000000#32 reduces_S1024x1024_S1024 (.inl rfl) rfl) shapeCasts_S1024_S1024x1) broadcasts_S1024x1_S1024x1024)

/-- The softmax weights of the rows of scores. -/
def probs (s : FVec F S1024x1024 .f32) : FVec F S1024x1024 .f32 := normalize (expo s)

/-- Weights against values: the head's 1024 × 64 output. -/
def pv (p : FVec F S1024x1024 .f32) (v : FVec F S1024x64 .bf16) : FVec F S1024x64 .f32 :=
  matmul dot_S1024x1024_S1024x64_S1024x64_1_0_0_1_n_n none (truncf .bf16 p bitsLt_bf16_f32) v (constant S1024x64 .f32 0x00000000#32)

/-- One whole head from the projected rows, at the three column offsets of its queries, keys and values. -/
def headOf (v5 : FVec F S1024x2304 .f32) (oq ok ov : Nat) (wq : S1024x2304.Slices ![0, oq] S1024x64)
    (wk : S1024x2304.Slices ![0, ok] S1024x64) (wv : S1024x2304.Slices ![0, ov] S1024x64) : FVec F S1024x64 .f32 :=
  pv (probs (scores (qpart v5 oq wq) (part v5 ok wk))) (part v5 ov wv)

end Defs

/-! ## Read at an index, on the extended reals -/

theorem part_apply (v5 : FVec Ideal S1024x2304 .f32) (o : Nat) (w : S1024x2304.Slices ![0, o] S1024x64) (ho : o + 64 ≤ 2304)
    (n : Fin 1024) (d : Fin 64) :
    part v5 o w (ix2 n d) = v5 (ix2 n (⟨o + d.val, by have := d.isLt; omega⟩ : Fin 2304)) := by
  show extractStridedSlice S1024x64 ![0, o] v5 w (ix2 n d) = _
  exact extractStridedSlice_apply ![0, o] v5 w (ix2 n d) (ix2 n (⟨o + d.val, by have := d.isLt; omega⟩ : Fin 2304)) (fun a => by
    match a with
    | ⟨0, _⟩ => show n.val = 0 + n.val; omega
    | ⟨1, _⟩ => rfl)

theorem qpart_apply (v5 : FVec Ideal S1024x2304 .f32) (o : Nat) (w : S1024x2304.Slices ![0, o] S1024x64) (ho : o + 64 ≤ 2304)
    (n : Fin 1024) (d : Fin 64) :
    qpart v5 o w (ix2 n d) = v5 (ix2 n (⟨o + d.val, by have := d.isLt; omega⟩ : Fin 2304)) * eighth := by
  show extractStridedSlice S1024x64 ![0, o] v5 w (ix2 n d) * eighth = _
  rw [extractStridedSlice_apply ![0, o] v5 w (ix2 n d) (ix2 n (⟨o + d.val, by have := d.isLt; omega⟩ : Fin 2304)) (fun a => by
    match a with
    | ⟨0, _⟩ => show n.val = 0 + n.val; omega
    | ⟨1, _⟩ => rfl)]

private theorem sc_lhs0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch from List.not_mem_nil), dif_pos (show (0 : Fin S1024x64.rank) ∈ dot_S1024x64_S1024x64_S1024x1024_1_1_0_0_n_n.lhsNonContracting from List.mem_singleton.mpr rfl)]
  rfl
private theorem sc_rhs0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch from List.not_mem_nil), dif_pos (show (0 : Fin S1024x64.rank) ∈ dot_S1024x64_S1024x64_S1024x1024_1_1_0_0_n_n.rhsNonContracting from List.mem_singleton.mpr rfl)]
  rfl

/-- A score is the sum over the 64 columns of query times key. -/
theorem scores_apply (q k : FVec Ideal S1024x64 .bf16) (n m : Fin 1024) :
    scores q k (ix2 n m) = ∑ d : Fin 64, q (ix2 n d) * k (ix2 m d) := by
  unfold scores
  simp only [matmul]
  rw [Ideal.matmul_constant_zero_apply, ← Equiv.sum_comp (contrEquiv1 dot_S1024x64_S1024x64_S1024x1024_1_1_0_0_n_n 64 rfl rfl).symm]
  refine Finset.sum_congr rfl fun d _ => ?_
  have hk := contrEquiv1_symm_val dot_S1024x64_S1024x64_S1024x1024_1_1_0_0_n_n 64 rfl rfl d
  have el : dot_S1024x64_S1024x64_S1024x1024_1_1_0_0_n_n.lhsIdx (ix2 n m) ((contrEquiv1 dot_S1024x64_S1024x64_S1024x1024_1_1_0_0_n_n 64 rfl rfl).symm d) = ix2 n d := funext fun a => Fin.ext (by
    match a with
    | ⟨0, _⟩ => exact sc_lhs0 _ _
    | ⟨1, _⟩ => exact (dot_S1024x64_S1024x64_S1024x1024_1_1_0_0_n_n.lhsIdx_val_of_single rfl _ _).trans hk)
  have er : dot_S1024x64_S1024x64_S1024x1024_1_1_0_0_n_n.rhsIdx (ix2 n m) ((contrEquiv1 dot_S1024x64_S1024x64_S1024x1024_1_1_0_0_n_n 64 rfl rfl).symm d) = ix2 m d := funext fun a => Fin.ext (by
    match a with
    | ⟨0, _⟩ => exact sc_rhs0 _ _
    | ⟨1, _⟩ => exact (dot_S1024x64_S1024x64_S1024x1024_1_1_0_0_n_n.rhsIdx_val_of_single rfl _ _).trans hk)
  rw [el, er]

private theorem pv_lhs0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch from List.not_mem_nil), dif_pos (show (0 : Fin S1024x1024.rank) ∈ dot_S1024x1024_S1024x64_S1024x64_1_0_0_1_n_n.lhsNonContracting from List.mem_singleton.mpr rfl)]
  rfl
private theorem pv_rhs1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch from List.not_mem_nil), dif_pos (show (1 : Fin S1024x64.rank) ∈ dot_S1024x1024_S1024x64_S1024x64_1_0_0_1_n_n.rhsNonContracting from List.mem_singleton.mpr rfl)]
  rfl

/-- A head's output entry is the sum over the 1024 rows of weight times value. -/
theorem pv_apply (p : FVec Ideal S1024x1024 .f32) (v : FVec Ideal S1024x64 .bf16) (n : Fin 1024) (d : Fin 64) :
    pv p v (ix2 n d) = ∑ m : Fin 1024, p (ix2 n m) * v (ix2 m d) := by
  unfold pv
  simp only [matmul]
  rw [Ideal.matmul_constant_zero_apply, ← Equiv.sum_comp (contrEquiv1 dot_S1024x1024_S1024x64_S1024x64_1_0_0_1_n_n 1024 rfl rfl).symm]
  refine Finset.sum_congr rfl fun m _ => ?_
  have hk := contrEquiv1_symm_val dot_S1024x1024_S1024x64_S1024x64_1_0_0_1_n_n 1024 rfl rfl m
  have el : dot_S1024x1024_S1024x64_S1024x64_1_0_0_1_n_n.lhsIdx (ix2 n d) ((contrEquiv1 dot_S1024x1024_S1024x64_S1024x64_1_0_0_1_n_n 1024 rfl rfl).symm m) = ix2 n m := funext fun a => Fin.ext (by
    match a with
    | ⟨0, _⟩ => exact pv_lhs0 _ _
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 n d) ((contrEquiv1 dot_S1024x1024_S1024x64_S1024x64_1_0_0_1_n_n 1024 rfl rfl).symm m) = ix2 m d := funext fun a => Fin.ext (by
    match a with
    | ⟨0, _⟩ => exact (dot_S1024x1024_S1024x64_S1024x64_1_0_0_1_n_n.rhsIdx_val_of_single rfl _ _).trans hk
    | ⟨1, _⟩ => exact pv_rhs1 _ _)
  rw [el, er]
  rfl

/-- The row maximum the kernel takes, read at a row: the fold of `max` from minus infinity over the row. -/
theorem rowmax_apply (s : FVec Ideal S1024x1024 .f32) (n : Fin 1024) :
    multiReduction .maximumf [1] S1024 s 0xFF800000#32 reduces_S1024x1024_S1024 (.inl rfl) rfl (ix1 n)
      = rowMax (fun m => s (ix2 n m)) := by
  refine (Ideal.multiReduction_maximumf_single s 0xFF800000#32 reduces_S1024x1024_S1024 (.inl rfl) rfl (ix1 n)).trans ?_
  unfold rowMax
  refine congrArg (Finset.fold max _ · _) (funext fun m => ?_)
  exact congrArg s (funext fun a => Fin.ext (by match a with | ⟨0, _⟩ => rfl | ⟨1, _⟩ => rfl))

/-- The exponentials read at an index. -/
theorem expo_apply (s : FVec Ideal S1024x1024 .f32) (n m : Fin 1024) :
    expo s (ix2 n m) = Ideal.exp (s (ix2 n m) - rowMax (fun m' => s (ix2 n m'))) := by
  show Ideal.exp (s (ix2 n m) - broadcastTo S1024x1024 _ broadcasts_S1024x1_S1024x1024 (ix2 n m)) = _
  rw [Cert.LibKeepdimsCol.broadcastTo_a1_ab_apply, Cert.LibKeepdimsCol.shapeCast_a_a1_apply, rowmax_apply]

/-- The row sum the kernel takes, read at a row. -/
theorem rowsum_apply (e : FVec Ideal S1024x1024 .f32) (n : Fin 1024) :
    multiReduction .add [1] S1024 e 0x00000000#32 reduces_S1024x1024_S1024 (.inl rfl) rfl (ix1 n)
      = ∑ m : Fin 1024, e (ix2 n m) := by
  refine (Ideal.multiReduction_add_single e 0x00000000#32 reduces_S1024x1024_S1024 (.inl rfl) rfl (ix1 n)).trans ?_
  refine Finset.sum_congr rfl fun m _ => ?_
  exact congrArg e (funext fun a => Fin.ext (by match a with | ⟨0, _⟩ => rfl | ⟨1, _⟩ => rfl))

/-- The softmax weights read at an index. -/
theorem probs_apply (s : FVec Ideal S1024x1024 .f32) (n m : Fin 1024) :
    probs s (ix2 n m) = soft (fun m' => s (ix2 n m')) m := by
  show Ideal.div (expo s (ix2 n m)) (broadcastTo S1024x1024 _ broadcasts_S1024x1_S1024x1024 (ix2 n m)) = _
  rw [Cert.LibKeepdimsCol.broadcastTo_a1_ab_apply, Cert.LibKeepdimsCol.shapeCast_a_a1_apply, rowsum_apply, expo_apply]
  unfold soft
  refine congrArg (Ideal.div _ ·) (Finset.sum_congr rfl fun m' _ => ?_)
  rw [expo_apply]

/-- One head from the projected rows `q` (given entry by entry), at the column offsets of head `h`. -/
theorem headOf_apply (v5 : FVec Ideal S1024x2304 .f32) (h : Fin 12)
    (wq : S1024x2304.Slices ![0, h.val * 64] S1024x64) (wk : S1024x2304.Slices ![0, 768 + h.val * 64] S1024x64)
    (wv : S1024x2304.Slices ![0, 1536 + h.val * 64] S1024x64) (n : Fin 1024) (d : Fin 64) :
    headOf v5 (h.val * 64) (768 + h.val * 64) (1536 + h.val * 64) wq wk wv (ix2 n d)
      = head (fun n o => v5 (ix2 n o)) h n d := by
  have hh := h.isLt
  unfold headOf head
  rw [pv_apply]
  refine Finset.sum_congr rfl fun m _ => ?_
  rw [probs_apply, part_apply v5 _ wv (by omega)]
  have hs : (fun m' => scores (qpart v5 (h.val * 64) wq) (part v5 (768 + h.val * 64) wk) (ix2 n m')) = score (fun n o => v5 (ix2 n o)) h n := by
    funext m'
    rw [scores_apply]
    unfold score
    refine Finset.sum_congr rfl fun d' _ => ?_
    rw [qpart_apply v5 _ wq (by omega), part_apply v5 _ wk (by omega)]
    have e0 : (⟨h.val * 64 + d'.val, by have := d'.isLt; omega⟩ : Fin 2304) = col 0 h d' := Fin.ext (by show h.val * 64 + d'.val = (0 : Fin 3).val * 768 + h.val * 64 + d'.val; show h.val * 64 + d'.val = 0 * 768 + h.val * 64 + d'.val; omega)
    have e1 : (⟨768 + h.val * 64 + d'.val, by have := d'.isLt; omega⟩ : Fin 2304) = col 1 h d' := Fin.ext (by show 768 + h.val * 64 + d'.val = 1 * 768 + h.val * 64 + d'.val; omega)
    rw [e0, e1]
  rw [hs]
  have e2 : (⟨1536 + h.val * 64 + d.val, by have := d.isLt; omega⟩ : Fin 2304) = col 2 h d := Fin.ext (by show 1536 + h.val * 64 + d.val = 2 * 768 + h.val * 64 + d.val; omega)
  rw [e2]

end Cert.KernelIdeal.Head

end
-- ==== Proof.Layer.lean ====
/-
  The attention layer as one function of the four argument arrays, index by index: entry `(b, n, o)` of the
  result is the layer of batch entry `b` (its 1024 rows of 768 features) at row `n`, output column `o`.
-/
import proofs.«164785_j10840497455414_2_alg».proof.Proof.Spec
import Idealize.ShloMosaic.Lib.ValueIdx

noncomputable section

namespace Cert.Attn

open Idealize.ShloMosaic Idealize.ShloMosaic.ValueIdx

/-- The layer at batch entry `b`, row `n`, output column `o`. -/
def layerAt (X : (⟨3, ![8, 1024, 768]⟩ : Shape).Idx → EReal) (W1 : (⟨2, ![2304, 768]⟩ : Shape).Idx → EReal)
    (W2 : (⟨2, ![768, 768]⟩ : Shape).Idx → EReal) (B : (⟨1, ![768]⟩ : Shape).Idx → EReal)
    (b : Fin 8) (n : Fin 1024) (o : Fin 768) : EReal :=
  out (fun n c => X (ix3 b n c)) (fun o c => W1 (ix2 o c)) (fun o c => W2 (ix2 o c)) (fun o => B (ix1 o)) n o

/-- The layer as a whole array. -/
def layer (X : (⟨3, ![8, 1024, 768]⟩ : Shape).Idx → EReal) (W1 : (⟨2, ![2304, 768]⟩ : Shape).Idx → EReal)
    (W2 : (⟨2, ![768, 768]⟩ : Shape).Idx → EReal) (B : (⟨1, ![768]⟩ : Shape).Idx → EReal) :
    (⟨3, ![8, 1024, 768]⟩ : Shape).Idx → EReal :=
  fun i => layerAt X W1 W2 B (i 0) (i 1) (i 2)

theorem layer_ix3 (X : (⟨3, ![8, 1024, 768]⟩ : Shape).Idx → EReal) (W1 : (⟨2, ![2304, 768]⟩ : Shape).Idx → EReal)
    (W2 : (⟨2, ![768, 768]⟩ : Shape).Idx → EReal) (B : (⟨1, ![768]⟩ : Shape).Idx → EReal)
    (b : Fin 8) (n : Fin 1024) (o : Fin 768) : layer X W1 W2 B (ix3 b n o) = layerAt X W1 W2 B b n o := rfl

end Cert.Attn

end
-- ==== Proof.Payload.lean ====
/-
  What the kernel's body stores for one batch entry, read at an index: the block it writes at `(0, n, o)` is
  the attention layer of the loaded rows at row `n`, output column `o`.
  The body projects the 1024 rows to 2304 columns, runs the twelve heads on 64-column slices of that array,
  concatenates their outputs along the columns (head `h` in columns `64h … 64h + 63`), multiplies by the second
  weight contracting the 768 columns and adds the bias row to every row.
-/
import proofs.«164785_j10840497455414_2_alg».proof.Proof.Gen.KernelIdeal.Frame
import proofs.«164785_j10840497455414_2_alg».proof.Proof.Head
import proofs.«164785_j10840497455414_2_alg».proof.Proof.Layer
import Idealize.ShloMosaic.Lib.ValueLayout

set_option maxRecDepth 65536

noncomputable section

namespace Cert.KernelIdeal.Payload

open Cert.KernelIdeal Cert.KernelIdeal.Gen Cert.KernelIdeal.Head Idealize.ShloMosaic Idealize.ShloMosaic.ValueIdx Cert.Attn

section Defs
variable {F : FTy → Type} [FloatOps F]

/-- Twelve head outputs side by side. -/
def concat12 (a0 a1 a2 a3 a4 a5 a6 a7 a8 a9 a10 a11 : FVec F S1024x64 .f32) : FVec F S1024x768 .f32 :=
  concatenate S1024x768 1 [⟨S1024x64, a0⟩, ⟨S1024x64, a1⟩, ⟨S1024x64, a2⟩, ⟨S1024x64, a3⟩, ⟨S1024x64, a4⟩, ⟨S1024x64, a5⟩, ⟨S1024x64, a6⟩, ⟨S1024x64, a7⟩, ⟨S1024x64, a8⟩, ⟨S1024x64, a9⟩, ⟨S1024x64, a10⟩, ⟨S1024x64, a11⟩] concatenates_S1024x64_S1024x64_S1024x64_S1024x64_S1024x64_S1024x64_S1024x64_S1024x64_S1024x64_S1024x64_S1024x64_S1024x64_S1024x768_d1

/-- The output projection and the bias, as the stored block. -/
def finish (a : FVec F S1024x768 .f32) (w : Vec F S768x768 .f32) (b : Vec F S1x768 .f32) : FVec F S1x1024x768 .f32 :=
  shapeCast S1x1024x768
    (addf (matmul dot_S1024x768_S768x768_S1024x768_1_1_0_0_n_n none (truncf .bf16 a bitsLt_bf16_f32) (truncf .bf16 w bitsLt_bf16_f32) (constant S1024x768 .f32 0x00000000#32))
      (broadcastTo S1024x768 (shapeCast S1x768 b shapeCasts_S1x768_S1x768) broadcasts_S1x768_S1024x768))
    shapeCasts_S1024x768_S1x1024x768

/-- The body's one stored value, from the four loaded blocks. -/
def stored (x0 : Vec F S1x1024x768 .f32) (x1 : Vec F S2304x768 .f32) (x2 : Vec F S768x768 .f32) (x3 : Vec F S1x768 .f32) : FVec F S1x1024x768 .f32 :=
  finish (concat12 (headOf (k0_pay2 x0 x1) 0 768 1536 slices_S1024x2304_o0_0_S1024x64 slices_S1024x2304_o0_768_S1024x64 slices_S1024x2304_o0_1536_S1024x64)
    (headOf (k0_pay2 x0 x1) 64 832 1600 slices_S1024x2304_o0_64_S1024x64 slices_S1024x2304_o0_832_S1024x64 slices_S1024x2304_o0_1600_S1024x64)
    (headOf (k0_pay2 x0 x1) 128 896 1664 slices_S1024x2304_o0_128_S1024x64 slices_S1024x2304_o0_896_S1024x64 slices_S1024x2304_o0_1664_S1024x64)
    (headOf (k0_pay2 x0 x1) 192 960 1728 slices_S1024x2304_o0_192_S1024x64 slices_S1024x2304_o0_960_S1024x64 slices_S1024x2304_o0_1728_S1024x64)
    (headOf (k0_pay2 x0 x1) 256 1024 1792 slices_S1024x2304_o0_256_S1024x64 slices_S1024x2304_o0_1024_S1024x64 slices_S1024x2304_o0_1792_S1024x64)
    (headOf (k0_pay2 x0 x1) 320 1088 1856 slices_S1024x2304_o0_320_S1024x64 slices_S1024x2304_o0_1088_S1024x64 slices_S1024x2304_o0_1856_S1024x64)
    (headOf (k0_pay2 x0 x1) 384 1152 1920 slices_S1024x2304_o0_384_S1024x64 slices_S1024x2304_o0_1152_S1024x64 slices_S1024x2304_o0_1920_S1024x64)
    (headOf (k0_pay2 x0 x1) 448 1216 1984 slices_S1024x2304_o0_448_S1024x64 slices_S1024x2304_o0_1216_S1024x64 slices_S1024x2304_o0_1984_S1024x64)
    (headOf (k0_pay2 x0 x1) 512 1280 2048 slices_S1024x2304_o0_512_S1024x64 slices_S1024x2304_o0_1280_S1024x64 slices_S1024x2304_o0_2048_S1024x64)
    (headOf (k0_pay2 x0 x1) 576 1344 2112 slices_S1024x2304_o0_576_S1024x64 slices_S1024x2304_o0_1344_S1024x64 slices_S1024x2304_o0_2112_S1024x64)
    (headOf (k0_pay2 x0 x1) 640 1408 2176 slices_S1024x2304_o0_640_S1024x64 slices_S1024x2304_o0_1408_S1024x64 slices_S1024x2304_o0_2176_S1024x64)
    (headOf (k0_pay2 x0 x1) 704 1472 2240 slices_S1024x2304_o0_704_S1024x64 slices_S1024x2304_o0_1472_S1024x64 slices_S1024x2304_o0_2240_S1024x64)) x2 x3

/-- The skeleton's payloads, composed as the body composes them, are that value: the heads are the same
    chain of operations cut at different places. -/
theorem out0_4_payload (x0 : Vec F S1x1024x768 .f32) (x1 : Vec F S2304x768 .f32) (x2 : Vec F S768x768 .f32) (x3 : Vec F S1x768 .f32) :
    k0_pay1 (k0_pay3 x0 x1) (k0_pay6 (k0_pay4 x0 x1) (k0_pay5 x0 x1)) (k0_pay7 (k0_pay2 x0 x1)) (k0_pay8 (k0_pay2 x0 x1)) (k0_pay12 (k0_pay9 (k0_pay2 x0 x1)) (k0_pay10 (k0_pay2 x0 x1)) (k0_pay11 (k0_pay2 x0 x1))) (k0_pay13 (k0_pay2 x0 x1)) (k0_pay16 (k0_pay14 (k0_pay2 x0 x1)) (k0_pay15 (k0_pay2 x0 x1))) (k0_pay17 (k0_pay2 x0 x1)) (k0_pay18 (k0_pay2 x0 x1)) (k0_pay20 (k0_pay2 x0 x1) (k0_pay19 (k0_pay2 x0 x1)) (Scalar.ofBits .f32 0x3E000000#32)) (k0_pay21 (k0_pay2 x0 x1)) (k0_pay22 (k0_pay2 x0 x1)) (k0_pay23 (k0_pay2 x0 x1)) x2 x3
      = stored x0 x1 x2 x3 := rfl

end Defs

/-! ## Read at an index, on the extended reals -/

private theorem pj_lhs0 (i : S1024x2304.Idx) (q : dot_S1024x768_S2304x768_S1024x2304_1_1_0_0_n_n.contr.Idx) :
    (dot_S1024x768_S2304x768_S1024x2304_1_1_0_0_n_n.lhsIdx i q 0).val = (i 0).val := by
  unfold DotDims.lhsIdx
  rw [dif_neg (show ¬(0 : Fin S1024x768.rank) ∈ dot_S1024x768_S2304x768_S1024x2304_1_1_0_0_n_n.lhsBatch from List.not_mem_nil), dif_pos (show (0 : Fin S1024x768.rank) ∈ dot_S1024x768_S2304x768_S1024x2304_1_1_0_0_n_n.lhsNonContracting from List.mem_singleton.mpr rfl)]
  rfl
private theorem pj_rhs0 (i : S1024x2304.Idx) (q : dot_S1024x768_S2304x768_S1024x2304_1_1_0_0_n_n.contr.Idx) :
    (dot_S1024x768_S2304x768_S1024x2304_1_1_0_0_n_n.rhsIdx i q 0).val = (i 1).val := by
  unfold DotDims.rhsIdx
  rw [dif_neg (show ¬(0 : Fin S2304x768.rank) ∈ dot_S1024x768_S2304x768_S1024x2304_1_1_0_0_n_n.rhsBatch from List.not_mem_nil), dif_pos (show (0 : Fin S2304x768.rank) ∈ dot_S1024x768_S2304x768_S1024x2304_1_1_0_0_n_n.rhsNonContracting from List.mem_singleton.mpr rfl)]
  rfl

/-- The projected rows: entry `(n, o)` is the sum over the 768 features of row `n` times weight row `o`. -/
theorem proj_apply (x0 : Vec Ideal S1x1024x768 .f32) (x1 : Vec Ideal S2304x768 .f32) (n : Fin 1024) (o : Fin 2304) :
    k0_pay2 x0 x1 (ix2 n o) = proj (fun n c => x0 (ix3 (0 : Fin 1) n c)) (fun o c => x1 (ix2 o c)) n o := by
  unfold k0_pay2 proj
  simp only [matmul]
  rw [Ideal.matmul_constant_zero_apply, ← Equiv.sum_comp (contrEquiv1 dot_S1024x768_S2304x768_S1024x2304_1_1_0_0_n_n 768 rfl rfl).symm]
  refine Finset.sum_congr rfl fun c _ => ?_
  have hk := contrEquiv1_symm_val dot_S1024x768_S2304x768_S1024x2304_1_1_0_0_n_n 768 rfl rfl c
  have el : dot_S1024x768_S2304x768_S1024x2304_1_1_0_0_n_n.lhsIdx (ix2 n o) ((contrEquiv1 dot_S1024x768_S2304x768_S1024x2304_1_1_0_0_n_n 768 rfl rfl).symm c) = ix2 n c := funext fun a => Fin.ext (by
    match a with
    | ⟨0, _⟩ => exact pj_lhs0 _ _
    | ⟨1, _⟩ => exact (dot_S1024x768_S2304x768_S1024x2304_1_1_0_0_n_n.lhsIdx_val_of_single rfl _ _).trans hk)
  have er : dot_S1024x768_S2304x768_S1024x2304_1_1_0_0_n_n.rhsIdx (ix2 n o) ((contrEquiv1 dot_S1024x768_S2304x768_S1024x2304_1_1_0_0_n_n 768 rfl rfl).symm c) = ix2 o c := funext fun a => Fin.ext (by
    match a with
    | ⟨0, _⟩ => exact pj_rhs0 _ _
    | ⟨1, _⟩ => exact (dot_S1024x768_S2304x768_S1024x2304_1_1_0_0_n_n.rhsIdx_val_of_single rfl _ _).trans hk)
  rw [el, er]
  show shapeCast S1024x768 x0 shapeCasts_S1x1024x768_S1024x768 (ix2 n c) * x1 (ix2 o c) = _
  rw [shapeCast_1ab_ab_apply]

/-- A head at literal column offsets that are those of head `h`. -/
theorem headOf_at (v5 : FVec Ideal S1024x2304 .f32) (h : Fin 12) (oq ok ov : Nat)
    (hq : oq = h.val * 64) (hk : ok = 768 + h.val * 64) (hv : ov = 1536 + h.val * 64)
    (wq : S1024x2304.Slices ![0, oq] S1024x64) (wk : S1024x2304.Slices ![0, ok] S1024x64)
    (wv : S1024x2304.Slices ![0, ov] S1024x64) (n : Fin 1024) (d : Fin 64) :
    headOf v5 oq ok ov wq wk wv (ix2 n d) = head (fun n o => v5 (ix2 n o)) h n d := by
  subst hq hk hv
  exact headOf_apply v5 h wq wk wv n d

/-- The twelve heads side by side are the attention array: column `c` is head `c / 64` at position `c % 64`. -/
theorem concat_heads_apply (v5 : FVec Ideal S1024x2304 .f32) (n : Fin 1024) (c : Fin 768) :
    concat12 (headOf v5 0 768 1536 slices_S1024x2304_o0_0_S1024x64 slices_S1024x2304_o0_768_S1024x64 slices_S1024x2304_o0_1536_S1024x64)
      (headOf v5 64 832 1600 slices_S1024x2304_o0_64_S1024x64 slices_S1024x2304_o0_832_S1024x64 slices_S1024x2304_o0_1600_S1024x64)
      (headOf v5 128 896 1664 slices_S1024x2304_o0_128_S1024x64 slices_S1024x2304_o0_896_S1024x64 slices_S1024x2304_o0_1664_S1024x64)
      (headOf v5 192 960 1728 slices_S1024x2304_o0_192_S1024x64 slices_S1024x2304_o0_960_S1024x64 slices_S1024x2304_o0_1728_S1024x64)
      (headOf v5 256 1024 1792 slices_S1024x2304_o0_256_S1024x64 slices_S1024x2304_o0_1024_S1024x64 slices_S1024x2304_o0_1792_S1024x64)
      (headOf v5 320 1088 1856 slices_S1024x2304_o0_320_S1024x64 slices_S1024x2304_o0_1088_S1024x64 slices_S1024x2304_o0_1856_S1024x64)
      (headOf v5 384 1152 1920 slices_S1024x2304_o0_384_S1024x64 slices_S1024x2304_o0_1152_S1024x64 slices_S1024x2304_o0_1920_S1024x64)
      (headOf v5 448 1216 1984 slices_S1024x2304_o0_448_S1024x64 slices_S1024x2304_o0_1216_S1024x64 slices_S1024x2304_o0_1984_S1024x64)
      (headOf v5 512 1280 2048 slices_S1024x2304_o0_512_S1024x64 slices_S1024x2304_o0_1280_S1024x64 slices_S1024x2304_o0_2048_S1024x64)
      (headOf v5 576 1344 2112 slices_S1024x2304_o0_576_S1024x64 slices_S1024x2304_o0_1344_S1024x64 slices_S1024x2304_o0_2112_S1024x64)
      (headOf v5 640 1408 2176 slices_S1024x2304_o0_640_S1024x64 slices_S1024x2304_o0_1408_S1024x64 slices_S1024x2304_o0_2176_S1024x64)
      (headOf v5 704 1472 2240 slices_S1024x2304_o0_704_S1024x64 slices_S1024x2304_o0_1472_S1024x64 slices_S1024x2304_o0_2240_S1024x64) (ix2 n c)
      = attn (fun n o => v5 (ix2 n o)) n c := by
  have hc := c.isLt
  have hq : c.val / 64 < 12 := by omega
  unfold concat12
  rcases (show c.val / 64 = 0 ∨ c.val / 64 = 1 ∨ c.val / 64 = 2 ∨ c.val / 64 = 3 ∨ c.val / 64 = 4 ∨ c.val / 64 = 5 ∨ c.val / 64 = 6 ∨ c.val / 64 = 7 ∨ c.val / 64 = 8 ∨ c.val / 64 = 9 ∨ c.val / 64 = 10 ∨ c.val / 64 = 11 by omega) with h | h | h | h | h | h | h | h | h | h | h | h
  · -- columns 0 … 63: head 0
    have hk : (⟨c.val / 64, hq⟩ : Fin 12) = (0 : Fin 12) := Fin.ext h
    refine (concatenate_apply_piece (1 : Fin 2) _ _ (ix2 n c) 0 (by show 0 < 12; omega) S1024x64 _ rfl rfl 0 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 0 + c.val % 64 = c.val; omega
    · unfold attn
      rw [hk]
      exact headOf_at v5 0 0 768 1536 rfl rfl rfl _ _ _ n _
  · -- columns 64 … 127: head 1
    have hk : (⟨c.val / 64, hq⟩ : Fin 12) = (1 : Fin 12) := Fin.ext h
    refine (concatenate_apply_piece (1 : Fin 2) _ _ (ix2 n c) 1 (by show 1 < 12; omega) S1024x64 _ rfl rfl 64 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 64 + c.val % 64 = c.val; omega
    · unfold attn
      rw [hk]
      exact headOf_at v5 1 64 832 1600 rfl rfl rfl _ _ _ n _
  · -- columns 128 … 191: head 2
    have hk : (⟨c.val / 64, hq⟩ : Fin 12) = (2 : Fin 12) := Fin.ext h
    refine (concatenate_apply_piece (1 : Fin 2) _ _ (ix2 n c) 2 (by show 2 < 12; omega) S1024x64 _ rfl rfl 128 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 128 + c.val % 64 = c.val; omega
    · unfold attn
      rw [hk]
      exact headOf_at v5 2 128 896 1664 rfl rfl rfl _ _ _ n _
  · -- columns 192 … 255: head 3
    have hk : (⟨c.val / 64, hq⟩ : Fin 12) = (3 : Fin 12) := Fin.ext h
    refine (concatenate_apply_piece (1 : Fin 2) _ _ (ix2 n c) 3 (by show 3 < 12; omega) S1024x64 _ rfl rfl 192 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 192 + c.val % 64 = c.val; omega
    · unfold attn
      rw [hk]
      exact headOf_at v5 3 192 960 1728 rfl rfl rfl _ _ _ n _
  · -- columns 256 … 319: head 4
    have hk : (⟨c.val / 64, hq⟩ : Fin 12) = (4 : Fin 12) := Fin.ext h
    refine (concatenate_apply_piece (1 : Fin 2) _ _ (ix2 n c) 4 (by show 4 < 12; omega) S1024x64 _ rfl rfl 256 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 256 + c.val % 64 = c.val; omega
    · unfold attn
      rw [hk]
      exact headOf_at v5 4 256 1024 1792 rfl rfl rfl _ _ _ n _
  · -- columns 320 … 383: head 5
    have hk : (⟨c.val / 64, hq⟩ : Fin 12) = (5 : Fin 12) := Fin.ext h
    refine (concatenate_apply_piece (1 : Fin 2) _ _ (ix2 n c) 5 (by show 5 < 12; omega) S1024x64 _ rfl rfl 320 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 320 + c.val % 64 = c.val; omega
    · unfold attn
      rw [hk]
      exact headOf_at v5 5 320 1088 1856 rfl rfl rfl _ _ _ n _
  · -- columns 384 … 447: head 6
    have hk : (⟨c.val / 64, hq⟩ : Fin 12) = (6 : Fin 12) := Fin.ext h
    refine (concatenate_apply_piece (1 : Fin 2) _ _ (ix2 n c) 6 (by show 6 < 12; omega) S1024x64 _ rfl rfl 384 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 384 + c.val % 64 = c.val; omega
    · unfold attn
      rw [hk]
      exact headOf_at v5 6 384 1152 1920 rfl rfl rfl _ _ _ n _
  · -- columns 448 … 511: head 7
    have hk : (⟨c.val / 64, hq⟩ : Fin 12) = (7 : Fin 12) := Fin.ext h
    refine (concatenate_apply_piece (1 : Fin 2) _ _ (ix2 n c) 7 (by show 7 < 12; omega) S1024x64 _ rfl rfl 448 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 448 + c.val % 64 = c.val; omega
    · unfold attn
      rw [hk]
      exact headOf_at v5 7 448 1216 1984 rfl rfl rfl _ _ _ n _
  · -- columns 512 … 575: head 8
    have hk : (⟨c.val / 64, hq⟩ : Fin 12) = (8 : Fin 12) := Fin.ext h
    refine (concatenate_apply_piece (1 : Fin 2) _ _ (ix2 n c) 8 (by show 8 < 12; omega) S1024x64 _ rfl rfl 512 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 512 + c.val % 64 = c.val; omega
    · unfold attn
      rw [hk]
      exact headOf_at v5 8 512 1280 2048 rfl rfl rfl _ _ _ n _
  · -- columns 576 … 639: head 9
    have hk : (⟨c.val / 64, hq⟩ : Fin 12) = (9 : Fin 12) := Fin.ext h
    refine (concatenate_apply_piece (1 : Fin 2) _ _ (ix2 n c) 9 (by show 9 < 12; omega) S1024x64 _ rfl rfl 576 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 576 + c.val % 64 = c.val; omega
    · unfold attn
      rw [hk]
      exact headOf_at v5 9 576 1344 2112 rfl rfl rfl _ _ _ n _
  · -- columns 640 … 703: head 10
    have hk : (⟨c.val / 64, hq⟩ : Fin 12) = (10 : Fin 12) := Fin.ext h
    refine (concatenate_apply_piece (1 : Fin 2) _ _ (ix2 n c) 10 (by show 10 < 12; omega) S1024x64 _ rfl rfl 640 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 640 + c.val % 64 = c.val; omega
    · unfold attn
      rw [hk]
      exact headOf_at v5 10 640 1408 2176 rfl rfl rfl _ _ _ n _
  · -- columns 704 … 767: head 11
    have hk : (⟨c.val / 64, hq⟩ : Fin 12) = (11 : Fin 12) := Fin.ext h
    refine (concatenate_apply_piece (1 : Fin 2) _ _ (ix2 n c) 11 (by show 11 < 12; omega) S1024x64 _ rfl rfl 704 rfl
      (ix2 n (⟨c.val % 64, Nat.mod_lt _ (by decide)⟩ : Fin 64)) (fun b hb => ?_) ?_).trans ?_
    · match b, hb with
      | ⟨0, _⟩, _ => rfl
      | ⟨1, _⟩, hb => exact absurd rfl hb
    · show 704 + c.val % 64 = c.val; omega
    · unfold attn
      rw [hk]
      exact headOf_at v5 11 704 1472 2240 rfl rfl rfl _ _ _ n _

private theorem fn_lhs0 (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch from List.not_mem_nil), dif_pos (show (0 : Fin S1024x768.rank) ∈ dot_S1024x768_S768x768_S1024x768_1_1_0_0_n_n.lhsNonContracting from List.mem_singleton.mpr rfl)]
  rfl
private theorem fn_rhs0 (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch from List.not_mem_nil), dif_pos (show (0 : Fin S768x768.rank) ∈ dot_S1024x768_S768x768_S1024x768_1_1_0_0_n_n.rhsNonContracting from List.mem_singleton.mpr rfl)]
  rfl

/-- The stored block at `(0, n, o)`: the attention array times the second weight, plus the bias. -/
theorem finish_apply (a : FVec Ideal S1024x768 .f32) (w : Vec Ideal S768x768 .f32) (b : Vec Ideal S1x768 .f32)
    (u : Fin 1) (n : Fin 1024) (o : Fin 768) :
    finish a w b (ix3 u n o) = (∑ c : Fin 768, a (ix2 n c) * w (ix2 o c)) + b (ix2 (0 : Fin 1) o) := by
  unfold finish
  rw [shapeCast_ab_1ab_apply]
  show matmul dot_S1024x768_S768x768_S1024x768_1_1_0_0_n_n none _ _ (constant S1024x768 .f32 0x00000000#32) (ix2 n o)
      + broadcastTo S1024x768 _ broadcasts_S1x768_S1024x768 (ix2 n o) = _
  rw [broadcastTo_1b_ab_apply, shapeCast_self]
  refine congrArg (· + b (ix2 (0 : Fin 1) o)) ?_
  simp only [matmul]
  rw [Ideal.matmul_constant_zero_apply, ← Equiv.sum_comp (contrEquiv1 dot_S1024x768_S768x768_S1024x768_1_1_0_0_n_n 768 rfl rfl).symm]
  refine Finset.sum_congr rfl fun c _ => ?_
  have hk := contrEquiv1_symm_val dot_S1024x768_S768x768_S1024x768_1_1_0_0_n_n 768 rfl rfl c
  have el : dot_S1024x768_S768x768_S1024x768_1_1_0_0_n_n.lhsIdx (ix2 n o) ((contrEquiv1 dot_S1024x768_S768x768_S1024x768_1_1_0_0_n_n 768 rfl rfl).symm c) = ix2 n c := funext fun x => Fin.ext (by
    match x with
    | ⟨0, _⟩ => exact fn_lhs0 _ _
    | ⟨1, _⟩ => exact (dot_S1024x768_S768x768_S1024x768_1_1_0_0_n_n.lhsIdx_val_of_single rfl _ _).trans hk)
  have er : dot_S1024x768_S768x768_S1024x768_1_1_0_0_n_n.rhsIdx (ix2 n o) ((contrEquiv1 dot_S1024x768_S768x768_S1024x768_1_1_0_0_n_n 768 rfl rfl).symm c) = ix2 o c := funext fun x => Fin.ext (by
    match x with
    | ⟨0, _⟩ => exact fn_rhs0 _ _
    | ⟨1, _⟩ => exact (dot_S1024x768_S768x768_S1024x768_1_1_0_0_n_n.rhsIdx_val_of_single rfl _ _).trans hk)
  rw [el, er]
  rfl

/-- The body's stored value at `(0, n, o)` is the attention layer of the loaded blocks at row `n`, column `o`. -/
theorem stored_apply (x0 : Vec Ideal S1x1024x768 .f32) (x1 : Vec Ideal S2304x768 .f32) (x2 : Vec Ideal S768x768 .f32)
    (x3 : Vec Ideal S1x768 .f32) (u : Fin 1) (n : Fin 1024) (o : Fin 768) :
    stored x0 x1 x2 x3 (ix3 u n o)
      = out (fun n c => x0 (ix3 (0 : Fin 1) n c)) (fun o c => x1 (ix2 o c)) (fun o c => x2 (ix2 o c))
          (fun o => x3 (ix2 (0 : Fin 1) o)) n o := by
  unfold stored out
  rw [finish_apply]
  refine congrArg (· + x3 (ix2 (0 : Fin 1) o)) (Finset.sum_congr rfl fun c _ => ?_)
  rw [concat_heads_apply]
  have hp : (fun n o => k0_pay2 x0 x1 (ix2 n o)) = proj (fun n c => x0 (ix3 (0 : Fin 1) n c)) (fun o c => x1 (ix2 o c)) :=
    funext fun n => funext fun o => proj_apply x0 x1 n o
  rw [hp]

end Cert.KernelIdeal.Payload

end
-- ==== Proof.KernelValue.lean ====
/-
  From the blocks to the whole result array. Grid point `t` (one of 8) loads batch entry `t` of the input and
  the whole of both weights and of the bias row, and writes back batch entry `t` of the result; the 8 blocks tile
  the result array, so after the run the array is the attention layer of the argument arrays at every index.
-/
import proofs.«164785_j10840497455414_2_alg».proof.Proof.Gen.KernelIdeal.Value
import proofs.«164785_j10840497455414_2_alg».proof.Proof.Payload
import Idealize.ShloMosaic.Lib.StableHlo.Run

set_option maxRecDepth 65536

noncomputable section

namespace Cert.KernelIdeal.AttnValue

open Cert.KernelIdeal Cert.KernelIdeal.Gen Cert.KernelIdeal.Value Cert.KernelIdeal.Payload
open Idealize.ShloMosaic Idealize.ShloMosaic.TcCoe Idealize.SL.Sem Idealize.ShloMosaic.ValueIdx Idealize.ShloMosaic.StableHlo Cert.Attn
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The result array the kernel leaves: the attention layer of the four argument arrays. -/
def G (c : Dev nD) : S8x1024x768.Idx → EReal :=
  layer (m ((c : Thread nD τ).loc main_arg0)) (m ((c : Thread nD τ).loc main_arg1))
    (m ((c : Thread nD τ).loc main_arg2)) (m ((c : Thread nD τ).loc main_arg3))

/-- The block index maps over the grid: the input and the result move with the point along the batch axis,
    the weights and the bias row stay at block 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The bias row the region finds is the bias vector laid out as one row. -/
theorem bias_row (c : Dev nD) :
    (V m c main_v0 : S1x768.Idx → EReal) = shapeCast S1x768 (m ((c : Thread nD τ).loc main_arg3)) shapeCasts_S768_S1x768 := by
  dsimp only [Gen.V, Gen.hostOps0]
  after_results
  rfl

/-- The layer depends on its data only entry by entry. -/
theorem out_congr {x x' : Fin 1024 → Fin 768 → EReal} {w1 w1' : Fin 2304 → Fin 768 → EReal}
    {w2 w2' : Fin 768 → Fin 768 → EReal} {b b' : Fin 768 → EReal} {n n' : Fin 1024} {o o' : Fin 768}
    (hx : ∀ n c, x n c = x' n c) (h1 : ∀ o c, w1 o c = w1' o c) (h2 : ∀ o c, w2 o c = w2' o c)
    (hb : ∀ o, b o = b' o) (hn : n = n') (ho : o = o') : out x w1 w2 b n o = out x' w1' w2' b' n' o' := by
  have ex : x = x' := funext fun n => funext fun c => hx n c
  have e1 : w1 = w1' := funext fun o => funext fun c => h1 o c
  have e2 : w2 = w2' := funext fun o => funext fun c => h2 o c
  have eb : b = b' := funext hb
  subst ex e1 e2 eb hn ho
  rfl

/-- The stored block at any index of the block. -/
theorem stored_at (x0 : Vec Ideal S1x1024x768 .f32) (x1 : Vec Ideal S2304x768 .f32) (x2 : Vec Ideal S768x768 .f32)
    (x3 : Vec Ideal S1x768 .f32) (j : S1x1024x768.Idx) :
    stored x0 x1 x2 x3 j
      = out (fun n c => x0 (ix3 (0 : Fin 1) n c)) (fun o c => x1 (ix2 o c)) (fun o c => x2 (ix2 o c))
          (fun o => x3 (ix2 (0 : Fin 1) o)) (j 1) (j 2) := by
  obtain ⟨u, n, o, rfl⟩ : ∃ (u : Fin 1) (n : Fin 1024) (o : Fin 768), j = ix3 u n o := ⟨j 0, j 1, j 2, eq_ix3 j⟩
  exact stored_apply x0 x1 x2 x3 u n o

/-- What point `t` writes back is block `t` of the layer of the argument arrays. -/
theorem written_block (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero zero3]
  simp only [View.ld_unit_zero (S := S1x1024x768) zero3, View.ld_unit_zero (S := S2304x768) zero2,
    View.ld_unit_zero (S := S768x768) zero2, View.ld_unit_zero (S := S1x768) zero2]
  rw [out0_4_payload]
  obtain ⟨a0, a1, a2, b0, b1, c0, c1, d0, d1, r0, r1, r2⟩ := index_facts t
  funext j
  have hj0 : (j 0).val < 1 := (j 0).isLt
  have hj1 : (j 1).val < 1024 := (j 1).isLt
  have hj2 : (j 2).val < 768 := (j 2).isLt
  show stored (iblk m c 0 t) (iblk m c 1 t) (iblk m c 2 t) (iblk m c 3 t) j
      = G m c (((cfg0.win 4).blk t).view.emb j)
  refine (stored_at _ _ _ _ j).trans ?_
  unfold G layer layerAt
  refine out_congr (fun n k => ?_) (fun o k => ?_) (fun o k => ?_) (fun o => ?_) ?_ ?_
  · -- the input block at point t is batch entry t
    show V m c main_arg0 (((cfg0.win 0).blk t).view.emb (ix3 (0 : Fin 1) n k)) = _
    rw [V_main_arg0]
    exact congrArg _ (funext fun a => Fin.ext (by
      match a with
      | ⟨0, _⟩ => show win0_0.index t (0 : Fin 3) * 1 + 1 * 0 = win0_4.index t (0 : Fin 3) * 1 + 1 * (j 0).val; omega
      | ⟨1, _⟩ => show win0_0.index t (1 : Fin 3) * 1024 + 1 * n.val = n.val; omega
      | ⟨2, _⟩ => show win0_0.index t (2 : Fin 3) * 768 + 1 * k.val = k.val; omega))
  · show V m c main_arg1 (((cfg0.win 1).blk t).view.emb (ix2 o k)) = _
    rw [V_main_arg1]
    exact congrArg _ (funext fun a => Fin.ext (by
      match a with
      | ⟨0, _⟩ => show win0_1.index t (0 : Fin 2) * 2304 + 1 * o.val = o.val; omega
      | ⟨1, _⟩ => show win0_1.index t (1 : Fin 2) * 768 + 1 * k.val = k.val; omega))
  · show V m c main_arg2 (((cfg0.win 2).blk t).view.emb (ix2 o k)) = _
    rw [V_main_arg2]
    exact congrArg _ (funext fun a => Fin.ext (by
      match a with
      | ⟨0, _⟩ => show win0_2.index t (0 : Fin 2) * 768 + 1 * o.val = o.val; omega
      | ⟨1, _⟩ => show win0_2.index t (1 : Fin 2) * 768 + 1 * k.val = k.val; omega))
  · show V m c main_v0 (((cfg0.win 3).blk t).view.emb (ix2 (0 : Fin 1) o)) = _
    have e : ((cfg0.win 3).blk t).view.emb (ix2 (0 : Fin 1) o) = ix2 (0 : Fin 1) o := funext fun a => Fin.ext (by
      match a with
      | ⟨0, _⟩ => show win0_3.index t (0 : Fin 2) * 1 + 1 * 0 = 0; omega
      | ⟨1, _⟩ => show win0_3.index t (1 : Fin 2) * 768 + 1 * o.val = o.val; omega)
    rw [e]
    refine (congrFun (bias_row m c) (ix2 (0 : Fin 1) o)).trans ?_
    exact shapeCast_a_1a_apply _ _ (0 : Fin 1) o
  · exact Fin.ext (by show (j 1).val = win0_4.index t (1 : Fin 3) * 1024 + 1 * (j 1).val; omega)
  · exact Fin.ext (by show (j 2).val = win0_4.index t (2 : Fin 3) * 768 + 1 * (j 2).val; omega)

/-- An index of the result array is in point `t`'s block iff each coordinate is in the block's range. -/
theorem mem_block (t : Fin cfg0.N) (i : S8x1024x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole main_v1).slice (win0_4.rect t)).set ↔ _
  rw [View.set_slice_whole, Rect.mem_set_unit]
  exact Iff.rfl

/-- Every index of the result array lies in the block of the point numbered by its batch coordinate. -/
theorem covered (i : S8x1024x768.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 768 := (i 2).isLt
  have hN : cfg0.N = 8 := N_0
  let t : Fin cfg0.N := ⟨(i 0).val, by omega⟩
  obtain ⟨a0, a1, a2, b0, b1, c0, c1, d0, d1, r0, r1, r2⟩ := index_facts t
  have ht : t.val = (i 0).val := rfl
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- The result array after the run is the attention layer of the argument arrays. -/
theorem result_array (c : Dev nD) : (dats m 0 c).arrAt 4 cfg0.N = G m c :=
  (dats m 0 c).arrAt_eq_of_cover 4 (G m c) (fun t _ => written_block m c t) (covered)

/-- The kernel's run: it terminates, the result array holds the attention layer, the arguments are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (run_blocks m ρ)

end Cert.KernelIdeal.AttnValue

end
-- ==== Proof.RefValue.lean ====
/-
  The reference computes the attention layer: each of its stages read at coordinates.
  The projected array at `(b, n, o)` is the projection of batch entry `b`; the reshape to
  (batch, row, group, head, position) followed by the transpose and the three slices picks column
  `group · 768 + head · 64 + position`; the batched products are the scores and the head outputs; the row
  maximum, exponential, row sum and quotient are the softmax of a row of scores; the transpose and reshape
  back lay the heads side by side; the last product and the broadcast bias finish the layer.
-/
import proofs.«164785_j10840497455414_2_alg».proof.Proof.Gen.ReferenceIdeal.Read
import proofs.«164785_j10840497455414_2_alg».proof.Proof.Layer
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

variable (X : (⟨S8x1024x768, .f32⟩ : BufTy).Contents (Elt Ideal)) (W : (⟨S2304x768, .f32⟩ : BufTy).Contents (Elt Ideal))

/-- The projected rows of batch entry `b`. -/
def Q (b : Fin 8) : Fin 1024 → Fin 2304 → EReal :=
  proj (fun n c => X (ix3 b n c)) (fun o c => W (ix2 o c))

theorem v0_at (b : Fin 8) (n : Fin 1024) (o : Fin 2304) :
    val_main_v0 (F := Ideal) X W (ix3 b n o) = Q X W b n o := by
  rw [val_main_v0_apply]
  unfold Q proj
  refine Finset.sum_congr rfl fun c _ => ?_
  have el : lidx_main_v0 (ix3 b n o) c = ix3 b n c := funext fun a => Fin.ext (by
    match a with | ⟨0, _⟩ => rfl | ⟨1, _⟩ => rfl | ⟨2, _⟩ => rfl)
  have er : ridx_main_v0 (ix3 b n o) c = ix2 o c := funext fun a => Fin.ext (by
    match a with | ⟨0, _⟩ => rfl | ⟨1, _⟩ => rfl)
  rw [el, er]

/-- After the reshape and the transpose, group `s`, head `h`, position `d` is column `s·768 + h·64 + d`. -/
theorem v2_at (s : Fin 3) (b : Fin 8) (h : Fin 12) (n : Fin 1024) (d : Fin 64) :
    val_main_v2 (F := Ideal) X W (ix5 s b h n d) = Q X W b n (col s h d) := by
  rw [val_main_v2_apply, val_main_v1_apply, ← v0_at]
  have hs := s.isLt; have hb := b.isLt; have hh := h.isLt; have hn := n.isLt; have hd := d.isLt
  exact congrArg _ (funext fun a => Fin.ext (by
    match a with
    | ⟨0, _⟩ => show ((((b.val * 1024 + n.val) * 3 + s.val) * 12 + h.val) * 64 + d.val) / 2359296 = b.val; omega
    | ⟨1, _⟩ => show ((((b.val * 1024 + n.val) * 3 + s.val) * 12 + h.val) * 64 + d.val) / 2304 % 1024 = n.val; omega
    | ⟨2, _⟩ => show ((((b.val * 1024 + n.val) * 3 + s.val) * 12 + h.val) * 64 + d.val) % 2304 = s.val * 768 + h.val * 64 + d.val; omega))

theorem v4_at (b : Fin 8) (h : Fin 12) (n : Fin 1024) (d : Fin 64) :
    val_main_v4 (F := Ideal) X W (ix4 b h n d) = Q X W b n (col 0 h d) := by
  rw [val_main_v4_apply, val_main_v3_apply, ← v2_at]
  have hb := b.isLt; have hh := h.isLt; have hn := n.isLt; have hd := d.isLt
  exact congrArg _ (funext fun a => Fin.ext (by
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega))

theorem v8_at (b : Fin 8) (h : Fin 12) (n : Fin 1024) (d : Fin 64) :
    val_main_v8 (F := Ideal) X W (ix4 b h n d) = Q X W b n (col 1 h d) := by
  rw [val_main_v8_apply, val_main_v7_apply, ← v2_at]
  have hb := b.isLt; have hh := h.isLt; have hn := n.isLt; have hd := d.isLt
  exact congrArg _ (funext fun a => Fin.ext (by
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega))

theorem v10_at (b : Fin 8) (h : Fin 12) (n : Fin 1024) (d : Fin 64) :
    val_main_v10 (F := Ideal) X W (ix4 b h n d) = Q X W b n (col 2 h d) := by
  rw [val_main_v10_apply, val_main_v9_apply, ← v2_at]
  have hb := b.isLt; have hh := h.isLt; have hn := n.isLt; have hd := d.isLt
  exact congrArg _ (funext fun a => Fin.ext (by
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega))

theorem v6_at (b : Fin 8) (h : Fin 12) (n : Fin 1024) (d : Fin 64) :
    val_main_v6 (F := Ideal) X W (ix4 b h n d) = Q X W b n (col 0 h d) * eighth := by
  rw [val_main_v6_apply, v4_at]
  rfl

/-- The batched product of scaled queries and keys is the head's score. -/
theorem v11_at (b : Fin 8) (h : Fin 12) (n m : Fin 1024) :
    val_main_v11 (F := Ideal) X W (ix4 b h n m) = score (Q X W b) h n m := by
  rw [val_main_v11_apply]
  unfold score
  refine Finset.sum_congr rfl fun k _ => ?_
  have el : lidx_main_v11 (ix4 b h n m) k = ix4 b h n k := funext fun a => Fin.ext (by
    match a with | ⟨0, _⟩ => rfl | ⟨1, _⟩ => rfl | ⟨2, _⟩ => rfl | ⟨3, _⟩ => rfl)
  have er : ridx_main_v11 (ix4 b h n m) k = ix4 b h m k := funext fun a => Fin.ext (by
    match a with | ⟨0, _⟩ => rfl | ⟨1, _⟩ => rfl | ⟨2, _⟩ => rfl | ⟨3, _⟩ => rfl)
  rw [el, er, v6_at, v8_at]

/-- The reduce with `maximum` over the last axis is the row maximum of the scores. -/
theorem v12_at (b : Fin 8) (h : Fin 12) (n : Fin 1024) :
    val_main_v12 (F := Ideal) X W (ix3 b h n) = rowMax (score (Q X W b) h n) := by
  unfold val_main_v12
  have hr : S8x12x1024x1024.Reduces [3] S8x12x1024 := by decide
  rw [Host.reduce_eq_fold_single FloatOps.maximumf _ _ reducesTo_S8x12x1024x1024_S8x12x1024_d3 hr h_S_]
  have hx : (val_main_v11 (F := Ideal) X W ∘ hr.lift (ix3 b h n)) = score (Q X W b) h n := funext fun (m : Fin 1024) => by
    show val_main_v11 (F := Ideal) X W (hr.lift (ix3 b h n) m) = _
    rw [← v11_at]
    exact congrArg _ (funext fun a => Fin.ext (by
      match a with | ⟨0, _⟩ => rfl | ⟨1, _⟩ => rfl | ⟨2, _⟩ => rfl | ⟨3, _⟩ => rfl))
  rw [hx]
  rfl

theorem v14_at (b : Fin 8) (h : Fin 12) (n : Fin 1024) :
    val_main_v14 (F := Ideal) X W (ix3 b h n) = rowMax (score (Q X W b) h n) := by
  rw [val_main_v14_apply, v12_at]
  show max negInf (rowMax (score (Q X W b) h n)) = _
  exact max_eq_right (by unfold rowMax; exact (Finset.le_fold_max _).mpr (Or.inl le_rfl))

theorem v18_at (b : Fin 8) (h : Fin 12) (n m : Fin 1024) :
    val_main_v18 (F := Ideal) X W (ix4 b h n m)
      = Ideal.exp (score (Q X W b) h n m - rowMax (score (Q X W b) h n)) := by
  rw [val_main_v18_apply, val_main_v17_apply, val_main_v16_apply, val_main_v15_apply, v11_at]
  have e : idx_main_v15 (idx_main_v16 (ix4 b h n m)) = ix3 b h n := funext fun a => Fin.ext (by
    match a with | ⟨0, _⟩ => rfl | ⟨1, _⟩ => rfl | ⟨2, _⟩ => rfl)
  rw [e, v14_at]
  rfl

theorem v19_at (b : Fin 8) (h : Fin 12) (n : Fin 1024) :
    val_main_v19 (F := Ideal) X W (ix3 b h n)
      = ∑ m : Fin 1024, Ideal.exp (score (Q X W b) h n m - rowMax (score (Q X W b) h n)) := by
  rw [val_main_v19_apply, val_main_cst_2_apply]
  show Ideal.ofBits .f32 0x00000000#32 + _ = _
  rw [Ideal.ofBits_zero_f32, zero_add]
  refine Finset.sum_congr rfl fun m _ => ?_
  have e : idx_main_v19 (ix3 b h n) m = ix4 b h n m := funext fun a => Fin.ext (by
    match a with | ⟨0, _⟩ => rfl | ⟨1, _⟩ => rfl | ⟨2, _⟩ => rfl | ⟨3, _⟩ => rfl)
  rw [e, v18_at]

/-- The quotient of the exponentials by their row sum is the softmax of the row of scores. -/
theorem v22_at (b : Fin 8) (h : Fin 12) (n m : Fin 1024) :
    val_main_v22 (F := Ideal) X W (ix4 b h n m) = soft (score (Q X W b) h n) m := by
  rw [val_main_v22_apply, val_main_v21_apply, val_main_v20_apply, v18_at]
  have e : idx_main_v20 (idx_main_v21 (ix4 b h n m)) = ix3 b h n := funext fun a => Fin.ext (by
    match a with | ⟨0, _⟩ => rfl | ⟨1, _⟩ => rfl | ⟨2, _⟩ => rfl)
  rw [e, v19_at]
  rfl

/-- The batched product of the weights and the values is the head's output. -/
theorem v23_at (b : Fin 8) (h : Fin 12) (n : Fin 1024) (d : Fin 64) :
    val_main_v23 (F := Ideal) X W (ix4 b h n d) = head (Q X W b) h n d := by
  rw [val_main_v23_apply]
  unfold head
  refine Finset.sum_congr rfl fun k _ => ?_
  have el : lidx_main_v23 (ix4 b h n d) k = ix4 b h n k := funext fun a => Fin.ext (by
    match a with | ⟨0, _⟩ => rfl | ⟨1, _⟩ => rfl | ⟨2, _⟩ => rfl | ⟨3, _⟩ => rfl)
  have er : ridx_main_v23 (ix4 b h n d) k = ix4 b h k d := funext fun a => Fin.ext (by
    match a with | ⟨0, _⟩ => rfl | ⟨1, _⟩ => rfl | ⟨2, _⟩ => rfl | ⟨3, _⟩ => rfl)
  rw [el, er, v22_at, v10_at]

/-- The transpose and the reshape back lay the twelve heads side by side. -/
theorem v25_at (b : Fin 8) (n : Fin 1024) (c : Fin 768) :
    val_main_v25 (F := Ideal) X W (ix3 b n c) = attn (Q X W b) n c := by
  rw [val_main_v25_apply, val_main_v24_apply]
  have hb := b.isLt; have hn := n.isLt; have hc := c.isLt
  have e : idx_main_v24 (idx_main_v25 (ix3 b n c))
      = ix4 b (⟨c.val / 64, by omega⟩ : Fin 12) n (⟨c.val % 64, Nat.mod_lt _ (by decide)⟩ : Fin 64) := funext fun a => Fin.ext (by
    match a with
    | ⟨0, _⟩ => show ((b.val * 1024 + n.val) * 768 + c.val) / 786432 = b.val; omega
    | ⟨1, _⟩ => show ((b.val * 1024 + n.val) * 768 + c.val) / 64 % 12 = c.val / 64; omega
    | ⟨2, _⟩ => show ((b.val * 1024 + n.val) * 768 + c.val) / 768 % 1024 = n.val; omega
    | ⟨3, _⟩ => show ((b.val * 1024 + n.val) * 768 + c.val) % 64 = c.val % 64; omega)
  rw [e, v23_at]
  rfl

/-- The reference's result is the attention layer. -/
theorem result_eq (W2 : (⟨S768x768, .f32⟩ : BufTy).Contents (Elt Ideal)) (B : (⟨S768, .f32⟩ : BufTy).Contents (Elt Ideal)) :
    val_main_v29 (F := Ideal) X W W2 B = layer X W W2 B := by
  funext i
  obtain ⟨b, n, o, rfl⟩ : ∃ (b : Fin 8) (n : Fin 1024) (o : Fin 768), i = ix3 b n o := ⟨i 0, i 1, i 2, eq_ix3 i⟩
  rw [layer_ix3, val_main_v29_apply, val_main_v26_apply, val_main_v28_apply, val_main_v27_apply]
  unfold layerAt out
  show (∑ k : Fin 768, _) + _ = _
  have eb : idx_main_v27 (idx_main_v28 (ix3 b n o)) = ix1 o := funext fun a => Fin.ext (by
    match a with | ⟨0, _⟩ => rfl)
  rw [eb]
  refine congrArg (· + B (ix1 o)) (Finset.sum_congr rfl fun k _ => ?_)
  have el : lidx_main_v26 (ix3 b n o) k = ix3 b n k := funext fun a => Fin.ext (by
    match a with | ⟨0, _⟩ => rfl | ⟨1, _⟩ => rfl | ⟨2, _⟩ => rfl)
  have er : ridx_main_v26 (ix3 b n o) k = ix2 o k := funext fun a => Fin.ext (by
    match a with | ⟨0, _⟩ => rfl | ⟨1, _⟩ => rfl)
  rw [el, er, v25_at]
  rfl

end Cert.ReferenceIdeal.RefValue

end
-- ==== Proof.lean ====
/-
  A fused multi-head self-attention layer against its plain formulation, on the extended reals.

  Both programs take rows `x` (8 batch entries of 1024 rows of 768 features), a 2304 × 768 weight, a 768 × 768
  weight and a bias of 768 entries. Both project each row to 2304 columns — three groups (queries, keys, values)
  of 12 heads of 64 columns —, form for each head the scores (query · 1/8) · key summed over the head's 64
  columns, turn each row of scores into weights by subtracting the row maximum, exponentiating and dividing by
  the row sum, take the weighted sums of the head's values, lay the 12 head outputs side by side in 768 columns,
  project by the second weight and add the bias.

  The kernel does this one batch entry per grid point, with the 12 heads written out one after the other on
  64-column slices of the projected rows and their outputs concatenated; the reference does it for all batch
  entries and heads at once through a reshape to (batch, row, group, head, position), a transpose, batched
  products and a transpose and reshape back. At the ideal values every change of float format is the identity
  and every product with a contraction is the plain sum over the contracted index, so both are the same function
  of the arguments, index by index: `Cert.Attn.layer` (Proof/Spec.lean, Proof/Layer.lean). No law beyond
  re-indexing the sums is needed, so the finiteness of the inputs is not used.

  Proof/Head.lean reads one head of the kernel at an index; Proof/Payload.lean the whole stored block;
  Proof/KernelValue.lean goes from the 8 blocks to the result array; Proof/RefValue.lean reads the reference.
  The idealization rewrote nothing, so `preserves` has no conjunct.
-/
import proofs.«164785_j10840497455414_2_alg».proof.Defs
import proofs.«164785_j10840497455414_2_alg».proof.Proof.Gen.Kernel
import proofs.«164785_j10840497455414_2_alg».proof.Proof.Gen.Kernel.Skeleton
import proofs.«164785_j10840497455414_2_alg».proof.Proof.Gen.Kernel.Launch
import proofs.«164785_j10840497455414_2_alg».proof.Proof.Gen.Kernel.Points
import proofs.«164785_j10840497455414_2_alg».proof.Proof.Gen.Kernel.Frame
import proofs.«164785_j10840497455414_2_alg».proof.Proof.Gen.KernelIdeal
import proofs.«164785_j10840497455414_2_alg».proof.Proof.Gen.KernelIdeal.Skeleton
import proofs.«164785_j10840497455414_2_alg».proof.Proof.Gen.KernelIdeal.Launch
import proofs.«164785_j10840497455414_2_alg».proof.Proof.Gen.KernelIdeal.Points
import proofs.«164785_j10840497455414_2_alg».proof.Proof.Gen.KernelIdeal.Frame
import proofs.«164785_j10840497455414_2_alg».proof.Proof.Gen.ReferenceIdeal
import proofs.«164785_j10840497455414_2_alg».proof.Proof.Gen.KernelIdeal.Value
import proofs.«164785_j10840497455414_2_alg».proof.Proof.Gen.ReferenceIdeal.Run
import proofs.«164785_j10840497455414_2_alg».proof.Proof.Gen.ReferenceIdeal.Read
import proofs.«164785_j10840497455414_2_alg».proof.Proof.Gen.Pre_finite_inputs
import proofs.«164785_j10840497455414_2_alg».proof.Proof.KernelValue
import proofs.«164785_j10840497455414_2_alg».proof.Proof.RefValue
import Idealize.ShloMosaic.Adequacy
import Idealize.ShloMosaic.Init

noncomputable section

namespace Cert.Proof

open Idealize.ShloMosaic Idealize.SL.Sem Cert.Kernel

/-- The word-level kernel runs to the end without a fault and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From arguments that agree, the kernel's result array and the reference's are both the attention layer
    of the arguments, hence equal at every index. -/
theorem algebraic : Cert.algebraic_KernelIdeal_ReferenceIdeal := by
  intro m ρ m' ρ' _ hagree
  refine ⟨fun c => Cert.KernelIdeal.AttnValue.G m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
